-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x512 : Shape := ⟨3, ![1, 64, 512]⟩
abbrev S1024x64x512 : Shape := ⟨3, ![1024, 64, 512]⟩
abbrev S512x1024 : Shape := ⟨2, ![512, 1024]⟩
abbrev S512 : Shape := ⟨1, ![512]⟩
abbrev S512x1 : Shape := ⟨2, ![512, 1]⟩
abbrev S_ : Shape := ⟨0, ![]⟩

class Facts : Prop where
  bcast_S_S1x64x512 : S_.BroadcastsInDim S1x64x512 (![] : Fin 0 → Fin S1x64x512.rank)
  reducesTo_S1x64x512_S_d0_1_2 : S1x64x512.ReducesTo [0, 1, 2] S_
  h_S_ : 0 < S_.numel
  bcast_S_S1024x64x512 : S_.BroadcastsInDim S1024x64x512 (![] : Fin 0 → Fin S1024x64x512.rank)
  reducesTo_S1024x64x512_S_d0_1_2 : S1024x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_arg4 : FVec F S512x1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  main_v23

def fn {F : FTy → Type} [FloatOps F] (main_arg0 : FVec F S1x64x512 .f32) (main_arg1 : FVec F S1024x64x512 .f32) (main_arg2 : FVec F S512x1024 .f32) (main_arg3 : FVec F S512 .f32) (main_arg4 : FVec F S512x1 .f32) : IVec S_ 1 :=
  let main_v0 : FVec F S1x64x512 .f32 := Host.absf main_arg0
  let main_cst : FVec F S_ .f32 := constant S_ .f32 0x7F800000#32
  let main_v1 : FVec F S1x64x512 .f32 := broadcastInDim S1x64x512 ![] bcast_S_S1x64x512 main_cst
  let main_v2 : IVec S1x64x512 1 := cmpf .olt main_v0 main_v1
  let main_c : IVec S_ 1 := constantI S_ 1 1#1
  let main_v3 : IVec S_ 1 := (fun x v => Host.reduce IntOp.andi x v reducesTo_S1x64x512_S_d0_1_2 h_S_) main_v2 main_c
  let main_v4 : FVec F S1024x64x512 .f32 := Host.absf main_arg1
  let main_cst_0 : FVec F S_ .f32 := constant S_ .f32 0x7F800000#32
  let main_v5 : FVec F S1024x64x512 .f32 := broadcastInDim S1024x64x512 ![] bcast_S_S1024x64x512 main_cst_0
  let main_v6 : IVec S1024x64x512 1 := cmpf .olt main_v4 main_v5
  let main_c_1 : IVec S_ 1 := constantI S_ 1 1#1
  let main_v7 : IVec S_ 1 := (fun x v => Host.reduce IntOp.andi x v reducesTo_S1024x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S1x64x512 : Shape := ⟨3, ![1, 64, 512]⟩
abbrev S1024x64x512 : Shape := ⟨3, ![1024, 64, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S64x512 : Shape := ⟨2, ![64, 512]⟩
abbrev S1x512 : Shape := ⟨2, ![1, 512]⟩
abbrev S1024x64 : Shape := ⟨2, ![1024, 64]⟩
abbrev S32x64x512 : Shape := ⟨3, ![32, 64, 512]⟩
abbrev S32x64 : Shape := ⟨2, ![32, 64]⟩
abbrev S2048x512 : Shape := ⟨2, ![2048, 512]⟩
abbrev S1x1x512 : Shape := ⟨3, ![1, 1, 512]⟩
abbrev S_ : Shape := ⟨0, ![]⟩
abbrev S64 : Shape := ⟨1, ![64]⟩
abbrev S1x64 : Shape := ⟨2, ![1, 64]⟩
abbrev S1024x1x64 : Shape := ⟨3, ![1024, 1, 64]⟩

abbrev nBuf : Space → Nat
  | .hbm => 28
  | .vmem => 7
  | .smem => 0
  | _ => 0

abbrev bufTy : (tb : Table) → Fin (tcTables nBuf tb) → BufTy
  | .hbm, ⟨0, _⟩ => ⟨S1x64x512, .f32⟩
  | .hbm, ⟨1, _⟩ => ⟨S1024x64x512, .f32⟩
  | .hbm, ⟨2, _⟩ => ⟨S512x1024, .f32⟩
  | .hbm, ⟨3, _⟩ => ⟨S512, .f32⟩
  | .hbm, ⟨4, _⟩ => ⟨S512x1, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S64x512, .f32⟩
  | .hbm, ⟨9, _⟩ => ⟨S512x512, .f32⟩
  | .hbm, ⟨10, _⟩ => ⟨S64x512, .f32⟩
  | .hbm, ⟨11, _⟩ => ⟨S1x512, .f32⟩
  | .hbm, ⟨12, _⟩ => ⟨S64x512, .f32⟩
  | .hbm, ⟨13, _⟩ => ⟨S64x512, .f32⟩
  | .hbm, ⟨14, _⟩ => ⟨S1x512, .f32⟩
  | .hbm, ⟨15, _⟩ => ⟨S1024x64, .f32⟩
  | .hbm, ⟨16, _⟩ => ⟨S_, .f32⟩
  | .hbm, ⟨17, _⟩ => ⟨S64, .f32⟩
  | .hbm, ⟨18, _⟩ => ⟨S1x64, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S_, .f32⟩
  | .hbm, ⟨23, _⟩ => ⟨S64, .f32⟩
  | .hbm, ⟨24, _⟩ => ⟨S1x64, .f32⟩
  | .hbm, ⟨25, _⟩ => ⟨S1024x64, .f32⟩
  | .hbm, ⟨26, _⟩ => ⟨S1024x64, .f32⟩
  | .hbm, ⟨27, _⟩ => ⟨S1024x1x64, .f32⟩
  | .local _ .vmem, ⟨0, _⟩ => ⟨S32x64x512, .f32⟩
  | .local _ .vmem, ⟨1, _⟩ => ⟨S32x64x512, .f32⟩
  | .local _ .vmem, ⟨2, _⟩ => ⟨S512x512, .f32⟩
  | .local _ .vmem, ⟨3, _⟩ => ⟨S64x512, .f32⟩
  | .local _ .vmem, ⟨4, _⟩ => ⟨S1x512, .f32⟩
  | .local _ .vmem, ⟨5, _⟩ => ⟨S32x64, .f32⟩
  | .local _ .vmem, ⟨6, _⟩ => ⟨S32x64, .f32⟩
  | _, _ => ⟨S1x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  shapeCasts_S1x64x512_S64x512 : S1x64x512.ShapeCasts S64x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  transposes_S512x1_S1x512_1_0 : S512x1.Transposes [1, 0] S1x512
  inb_S32x64x512_S32x64x512_0_0_0 : ∀ a, (![0, 0, 0] : Fin 3 → Nat) a + S32x64x512.size a ≤ S32x64x512.size a
  h_S32x64x512 : 0 < S32x64x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32x64x512_S2048x512 : S32x64x512.ShapeCasts S2048x512
  shapeCasts_S2048x512_S32x64x512 : S2048x512.ShapeCasts S32x64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S64x512_S1x64x512 : S64x512.ShapeCasts S1x64x512
  broadcasts_S1x64x512_S32x64x512 : S1x64x512.Broadcasts S32x64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S32x64x512 : S1x1x512.Broadcasts S32x64x512
  reduces_S32x64x512_S32x64 : S32x64x512.Reduces [2] S32x64
  inb_S32x64_S32x64_0_0 : ∀ a, (![0, 0] : Fin 2 → Nat) a + S32x64.size a ≤ S32x64.size a
  h_S32x64 : 0 < S32x64.numel
  reducesTo_S1024x64_S64_d0 : S1024x64.ReducesTo [0] S64
  h_S_ : 0 < S_.numel
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S1024x64_S1024x1x64_0_2 : S1024x64.BroadcastsInDim S1024x1x64 (![0, 2] : Fin 2 → Fin S1024x1x64.rank)
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S1024x64x512.size a
  hwx0_0 : ∀ i : grid0.Coords, EltTy.bits .f32 = 32 ∨ (Rect.block (s := S1024x64x512) S32x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S1024x64.size a
  hwx0_4 : ∀ i : grid0.Coords, EltTy.bits .f32 = 32 ∨ (Rect.block (s := S1024x64) S32x64.size (cc0_transform_4 i) (hinb0_4 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg1) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x64x512 : Shape := ⟨3, ![1, 64, 512]⟩
abbrev S1024x64x512 : Shape := ⟨3, ![1024, 64, 512]⟩
abbrev S512x1024 : Shape := ⟨2, ![512, 1024]⟩
abbrev S512 : Shape := ⟨1, ![512]⟩
abbrev S512x1 : Shape := ⟨2, ![512, 1]⟩
abbrev S1024x64x1024 : Shape := ⟨3, ![1024, 64, 1024]⟩
abbrev S1x1x512 : Shape := ⟨3, ![1, 1, 512]⟩
abbrev S1024x64x1 : Shape := ⟨3, ![1024, 64, 1]⟩
abbrev S1024x1x64 : Shape := ⟨3, ![1024, 1, 64]⟩
abbrev S_ : Shape := ⟨0, ![]⟩
abbrev S1x64 : Shape := ⟨2, ![1, 64]⟩
abbrev S1x1x64 : Shape := ⟨3, ![1, 1, 64]⟩

abbrev nBuf : Space → Nat
  | .hbm => 28
  | .vmem => 0
  | .smem => 0
  | _ => 0

abbrev bufTy : (tb : Table) → Fin (tcTables nBuf tb) → BufTy
  | .hbm, ⟨0, _⟩ => ⟨S1x64x512, .f32⟩
  | .hbm, ⟨1, _⟩ => ⟨S1024x64x512, .f32⟩
  | .hbm, ⟨2, _⟩ => ⟨S512x1024, .f32⟩
  | .hbm, ⟨3, _⟩ => ⟨S512, .f32⟩
  | .hbm, ⟨4, _⟩ => ⟨S512x1, .f32⟩
  | .hbm, ⟨5, _⟩ => ⟨S1024x64x512, .f32⟩
  | .hbm, ⟨6, _⟩ => ⟨S1024x64x1024, .f32⟩
  | .hbm, ⟨7, _⟩ => ⟨S1024x64x512, .f32⟩
  | .hbm, ⟨8, _⟩ => ⟨S1x1x512, .f32⟩
  | .hbm, ⟨9, _⟩ => ⟨S1024x64x512, .f32⟩
  | .hbm, ⟨10, _⟩ => ⟨S1024x64x512, .f32⟩
  | .hbm, ⟨11, _⟩ => ⟨S1024x64x512, .f32⟩
  | .hbm, ⟨12, _⟩ => ⟨S1024x64x1, .f32⟩
  | .hbm, ⟨13, _⟩ => ⟨S1024x1x64, .f32⟩
  | .hbm, ⟨14, _⟩ => ⟨S_, .f32⟩
  | .hbm, ⟨15, _⟩ => ⟨S1x64, .f32⟩
  | .hbm, ⟨16, _⟩ => ⟨S_, .f32⟩
  | .hbm, ⟨17, _⟩ => ⟨S1x64, .f32⟩
  | .hbm, ⟨18, _⟩ => ⟨S1x64, .f32⟩
  | .hbm, ⟨19, _⟩ => ⟨S1x1x64, .f32⟩
  | .hbm, ⟨20, _⟩ => ⟨S1024x1x64, .f32⟩
  | .hbm, ⟨21, _⟩ => ⟨S1024x1x64, .f32⟩
  | .hbm, ⟨22, _⟩ => ⟨S1024x1x64, .f32⟩
  | .hbm, ⟨23, _⟩ => ⟨S_, .f32⟩
  | .hbm, ⟨24, _⟩ => ⟨S1x64, .f32⟩
  | .hbm, ⟨25, _⟩ => ⟨S1x1x64, .f32⟩
  | .hbm, ⟨26, _⟩ => ⟨S1024x1x64, .f32⟩
  | .hbm, ⟨27, _⟩ => ⟨S1024x1x64, .f32⟩
  | _, _ => ⟨S1x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S1x64x512_S1024x64x512_0_1_2 : S1x64x512.BroadcastsInDim S1024x64x512 (![0, 1, 2] : Fin 3 → Fin S1024x64x512.rank)
  concatenates_S1024x64x512_S1024x64x512_S1024x64x1024_d2 : Shape.Concatenates [S1024x64x512, S1024x64x512] S1024x64x1024 2
  bcast_S512_S1x1x512_2 : S512.BroadcastsInDim S1x1x512 (![2] : Fin 1 → Fin S1x1x512.rank)
  bcast_S1x1x512_S1024x64x512_0_1_2 : S1x1x512.BroadcastsInDim S1024x64x512 (![0, 1, 2] : Fin 3 → Fin S1024x64x512.rank)
  transposes_S1024x64x1_S1024x1x64_0_2_1 : S1024x64x1.Transposes [0, 2, 1] S1024x1x64
  reducesTo_S1024x1x64_S1x64_d0 : S1024x1x64.ReducesTo [0] S1x64
  h_S_ : 0 < S_.numel
  bcast_S_S1x64 : S_.BroadcastsInDim S1x64 (![] : Fin 0 → Fin S1x64.rank)
  bcast_S1x64_S1x1x64_1_2 : S1x64.BroadcastsInDim S1x1x64 (![1, 2] : Fin 2 → Fin S1x1x64.rank)
  bcast_S1x1x64_S1024x1x64_0_1_2 : S1x1x64.BroadcastsInDim S1024x1x64 (![0, 1, 2] : Fin 3 → Fin S1024x1x64.rank)
  dot_S1024x64x1024_S512x1024_S1024x64x512_2_1_01_0_n_n_wf : DotDims.WF S1024x64x1024 S512x1024 S1024x64x512 [2] [1] [0, 1] [0] [] []
  dot_S1024x64x512_S512x1_S1024x64x1_2_0_01_1_n_n_wf : DotDims.WF S1024x64x512 S512x1 S1024x64x1 [2] [0] [0, 1] [1] [] []

variable [Facts₀]

def dot_S1024x64x1024_S512x1024_S1024x64x512_2_1_01_0_n_n : DotDims S1024x64x1024 S512x1024 S1024x64x512 where
  lhsContracting := [2]
  rhsContracting := [1]
  lhsNonContracting := [0, 1]
  rhsNonContracting := [0]
  lhsBatch := []
  rhsBatch := []
  wf := dot_S1024x64x1024_S512x1024_S1024x64x512_2_1_01_0_n_n_wf
def dot_S1024x64x512_S512x1_S1024x64x1_2_0_01_1_n_n : DotDims S1024x64x512 S512x1 S1024x64x1 where
  lhsContracting := [2]
  rhsContracting := [0]
  lhsNonContracting := [0, 1]
  rhsNonContracting := [1]
  lhsBatch := []
  rhsBatch := []
  wf := dot_S1024x64x512_S512x1_S1024x64x1_2_0_01_1_n_n_wf

class Facts : Prop extends Facts₀ where

variable [Facts]
-- ==== Proof.Spec.lean ====
/-
  The result both programs compute, as ONE function of the five argument arrays, index by index, on the extended reals.

  score s b  =  Σ_h tanh( Σ_k enc[s,b,k]·W[h,512+k]  +  ( Σ_k hid[0,b,k]·W[h,k] + bias[h] ) ) · beta[h,0]
  out[s,0,b] =  exp(score s b − M b) / (0 + Σ_s' exp(score s' b − M b)),   M b = max over s of score s b, folded from −∞.

  The weight matrix W is [512, 1024]: its first 512 columns multiply the hidden state (the same for every s), its last
  512 columns the encoder output at s. The reference contracts the concatenation [hid ; enc] against a whole row of W
  in one sum of 1024 terms; the kernel adds the two half sums. The two laws that join the sides are stated here, over
  any commutative monoid and any linear order: a sum over 1024 terms is the sum of its two halves, and taking the
  maximum of a fold's starting value with the fold changes nothing.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx
open scoped BigOperators

/-- Column `512 + k` of the weight matrix: the encoder half. -/
abbrev hi (k : Fin 512) : Fin 1024 := ⟨512 + k.val, by have := k.isLt; omega⟩
/-- Column `k` of the weight matrix: the hidden-state half. -/
abbrev lo (k : Fin 512) : Fin 1024 := ⟨k.val, by have := k.isLt; omega⟩

/-- The hidden state's contribution to the pre-activation at batch row `b`, feature `h`, with the bias: it does not
    depend on the sequence position. -/
def hidTerm (hid : (⟨3, ![1, 64, 512]⟩ : Shape).Idx → EReal) (W : (⟨2, ![512, 1024]⟩ : Shape).Idx → EReal)
    (bA : (⟨1, ![512]⟩ : Shape).Idx → EReal) (b : Fin 64) (h : Fin 512) : EReal :=
  (∑ k : Fin 512, hid (ix3 (0 : Fin 1) b k) * W (ix2 h (lo k))) + bA (ix1 h)

/-- The encoder's contribution at sequence position `s`. -/
def encTerm (enc : (⟨3, ![1024, 64, 512]⟩ : Shape).Idx → EReal) (W : (⟨2, ![512, 1024]⟩ : Shape).Idx → EReal)
    (s : Fin 1024) (b : Fin 64) (h : Fin 512) : EReal :=
  ∑ k : Fin 512, enc (ix3 s b k) * W (ix2 h (hi k))

/-- The attention score of position `s` in batch row `b`. -/
def score (hid : (⟨3, ![1, 64, 512]⟩ : Shape).Idx → EReal) (enc : (⟨3, ![1024, 64, 512]⟩ : Shape).Idx → EReal)
    (W : (⟨2, ![512, 1024]⟩ : Shape).Idx → EReal) (bA : (⟨1, ![512]⟩ : Shape).Idx → EReal)
    (beta : (⟨2, ![512, 1]⟩ : Shape).Idx → EReal) (s : Fin 1024) (b : Fin 64) : EReal :=
  ∑ h : Fin 512, Ideal.tanh (encTerm enc W s b h + hidTerm hid W bA b h) * beta (ix2 h (0 : Fin 1))

/-- The largest score of a batch row, folded from the f32 pattern of −∞. -/
def colMax (sc : Fin 1024 → Fin 64 → EReal) (b : Fin 64) : EReal :=
  (Finset.univ : Finset (Fin 1024)).fold max (Ideal.ofBits .f32 0xFF800000#32) (fun s => sc s b)

/-- The softmax over the sequence axis, the way both programs spell it: shift by the column's maximum, exponentiate,
    divide by the column's sum (which starts from the f32 pattern of zero). -/
def softmax (sc : Fin 1024 → Fin 64 → EReal) (s : Fin 1024) (b : Fin 64) : EReal :=
  Ideal.div (Ideal.exp (sc s b - colMax sc b))
    (Ideal.ofBits .f32 0x00000000#32 + ∑ s' : Fin 1024, Ideal.exp (sc s' b - colMax sc b))

/-- The result array [1024, 1, 64]. -/
def out (hid : (⟨3, ![1, 64, 512]⟩ : Shape).Idx → EReal) (enc : (⟨3, ![1024, 64, 512]⟩ : Shape).Idx → EReal)
    (W : (⟨2, ![512, 1024]⟩ : Shape).Idx → EReal) (bA : (⟨1, ![512]⟩ : Shape).Idx → EReal)
    (beta : (⟨2, ![512, 1]⟩ : Shape).Idx → EReal) : (⟨3, ![1024, 1, 64]⟩ : Shape).Idx → EReal :=
  fun i => softmax (score hid enc W bA beta) (i 0) (i 2)

/-- A sum of 1024 terms is the sum of its first 512 and its last 512. -/
theorem sum_halves {M : Type} [AddCommMonoid M] (f : Fin 1024 → M) :
    ∑ k : Fin 1024, f k = (∑ k : Fin 512, f (lo k)) + ∑ k : Fin 512, f (hi k) :=
  Fin.sum_univ_add (a := 512) (b := 512) f

/-- The maximum of a fold's starting value and the fold is the fold: the fold is never below where it started. -/
theorem max_init_fold {ι : Type} (s : Finset ι) (b : EReal) (f : ι → EReal) :
    max b (s.fold max b f) = s.fold max b f :=
  max_eq_right ((Finset.le_fold_max b).2 (Or.inl le_rfl))

/-- Three summands regrouped: (H + E) + c = E + (H + c). Addition of extended reals is commutative and associative
    at the infinities too, so no finiteness is needed. -/
theorem regroup (H E c : EReal) : (H + E) + c = E + (H + c) := by
  rw [add_comm H E, add_assoc]

end Cert.Attn

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.KPayload.lean ====
/-
  What one grid point's body stores, read at an index of its [32, 64] output block.

  The body loads a [32, 64, 512] block x0 of encoder outputs, the [512, 512] matrix x1 (the encoder half of the weights,
  transposed), the [64, 512] bias x2 and the [1, 512] row x3, and stores

      (p, q)  ↦  Σ_h tanh( Σ_k x0[p, q, k] · x1[k, h]  +  x2[q, h] ) · x3[0, h].

  The matrix product is taken on the block flattened to [2048, 512] (row 64·p + q) and cast back; the roundings to bf16 on
  the way in are the identity on the extended reals; the bias and the row are broadcast over the block; the sum over h is
  a lane reduction from zero.
-/
import proofs.«122231_j51127290691658_2_alg».proof.Proof.Gen.KernelIdeal.Skeleton
import proofs.«122231_j51127290691658_2_alg».proof.Proof.LibLayout3
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx
open scoped BigOperators

/-! ## The block product at an index -/

theorem mm_lhs0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem mm_lhs1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem mm_rhs0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem mm_rhs1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- A [2048, 512] × [512, 512] product into the zero accumulator, at (r, h): the sum over the contracted axis of the
    row's entries times the column's. -/
theorem mm_apply (A : FVec Ideal S2048x512 .bf16) (B : FVec Ideal S512x512 .bf16) (r : Fin 2048) (h : Fin 512) :
    matmul dot_S2048x512_S512x512_S2048x512_1_0_0_1_n_n none A B (constant (F := Ideal) S2048x512 .f32 0x00000000#32) (ix2 r h)
      = ∑ k : Fin 512, A (ix2 r k) * B (ix2 k h) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 r h) ((ValueIdx.contrEquiv1 dot_S2048x512_S512x512_S2048x512_1_0_0_1_n_n 512 rfl rfl).symm k) = ix2 r k := funext fun a => Fin.ext (by
    match a with
    | ⟨0, _⟩ => exact mm_lhs0 _ _
    | ⟨1, _⟩ => exact (mm_lhs1 _ _).trans hk)
  have er : dot_S2048x512_S512x512_S2048x512_1_0_0_1_n_n.rhsIdx (ix2 r h) ((ValueIdx.contrEquiv1 dot_S2048x512_S512x512_S2048x512_1_0_0_1_n_n 512 rfl rfl).symm k) = ix2 k h := funext fun a => Fin.ext (by
    match a with
    | ⟨0, _⟩ => exact (mm_rhs0 _ _).trans hk
    | ⟨1, _⟩ => exact mm_rhs1 _ _)
  rw [el, er]

/-- Row 64·p + q of the flattened block. -/
abbrev row (p : Fin 32) (q : Fin 64) : Fin 2048 := ⟨p.val * 64 + q.val, by have := p.isLt; have := q.isLt; omega⟩

/-- The encoder term of the body at (p, q, h): the block's row (p, q) against column h of the matrix. -/
theorem energy_apply (x0 : FVec Ideal S32x64x512 .f32) (x1 : FVec Ideal S512x512 .f32) (p : Fin 32) (q : Fin 64) (h : Fin 512) :
    shapeCast S32x64x512
        (matmul dot_S2048x512_S512x512_S2048x512_1_0_0_1_n_n none
          (shapeCast S2048x512 (truncf .bf16 x0 bitsLt_bf16_f32) shapeCasts_S32x64x512_S2048x512)
          (truncf .bf16 (shapeCast S512x512 x1 shapeCasts_S512x512_S512x512) bitsLt_bf16_f32)
          (constant (F := Ideal) S2048x512 .f32 0x00000000#32))
        shapeCasts_S2048x512_S32x64x512 (ix3 p q h)
      = ∑ k : Fin 512, x0 (ix3 p q k) * x1 (ix2 k h) := by
  refine (shapeCast_nc_abc_apply _ shapeCasts_S2048x512_S32x64x512 p q h (row p q) rfl).trans ?_
  refine (mm_apply _ _ (row p q) h).trans ?_
  refine Finset.sum_congr rfl fun k _ => ?_
  rw [shapeCast_abc_nc_apply (truncf .bf16 x0 bitsLt_bf16_f32) shapeCasts_S32x64x512_S2048x512 (row p q) k p q rfl,
    truncf_apply, truncf_apply, shapeCast_self]

/-- The bias, given its leading unit axis and broadcast over the block's 32 positions, at (p, q, h). -/
theorem bias_apply (x2 : FVec Ideal S64x512 .f32) (p : Fin 32) (q : Fin 64) (h : Fin 512) :
    broadcastTo S32x64x512 (shapeCast S1x64x512 (shapeCast S64x512 x2 shapeCasts_S64x512_S64x512) shapeCasts_S64x512_S1x64x512)
        broadcasts_S1x64x512_S32x64x512 (ix3 p q h) = x2 (ix2 q h) := by
  rw [broadcastTo_1ab_cab_apply, shapeCast_ab_1ab_apply, shapeCast_self]

/-- The row, given two leading unit axes and broadcast over the block, at (p, q, h). -/
theorem beta_apply (x3 : FVec Ideal S1x512 .f32) (p : Fin 32) (q : Fin 64) (h : Fin 512) :
    broadcastTo S32x64x512 (shapeCast S1x1x512 (shapeCast S1x512 x3 shapeCasts_S1x512_S1x512) shapeCasts_S1x512_S1x1x512)
        broadcasts_S1x1x512_S32x64x512 (ix3 p q h) = x3 (ix2 (0 : Fin 1) h) := by
  rw [broadcastTo_11b_cab_apply, shapeCast_ab_1ab_apply, shapeCast_self]

/-- A lane sum from zero of a [32, 64, 512] vector, at (p, q): the sum over the last axis. -/
theorem laneSum_apply (v : FVec Ideal S32x64x512 .f32) (p : Fin 32) (q : Fin 64) :
    multiReduction .add [2] S32x64 v 0x00000000#32 reduces_S32x64x512_S32x64 (.inl rfl) rfl (ix2 p q)
      = ∑ h : Fin 512, v (ix3 p q h) := by
  refine (Ideal.multiReduction_add_single v 0x00000000#32 reduces_S32x64x512_S32x64 (.inl rfl) rfl (ix2 p q)).trans ?_
  exact Finset.sum_congr rfl fun h _ => congrArg v (funext fun a => Fin.ext (by
    match a with
    | ⟨0, _⟩ => rfl
    | ⟨1, _⟩ => rfl
    | ⟨2, _⟩ => rfl))

/-! ## The payload -/

/-- The body's stored value at (p, q). -/
theorem pay_apply (x0 : FVec Ideal S32x64x512 .f32) (x1 : FVec Ideal S512x512 .f32) (x2 : FVec Ideal S64x512 .f32)
    (x3 : FVec Ideal S1x512 .f32) (p : Fin 32) (q : Fin 64) :
    k0_pay1 (F := Ideal) x0 x1 x2 x3 (ix2 p q)
      = ∑ h : Fin 512, Ideal.tanh ((∑ k : Fin 512, x0 (ix3 p q k) * x1 (ix2 k h)) + x2 (ix2 q h)) * x3 (ix2 (0 : Fin 1) h) := by
  unfold k0_pay1
  refine (laneSum_apply _ p q).trans ?_
  refine Finset.sum_congr rfl fun h _ => ?_
  rw [mulf_apply, beta_apply]
  refine congrArg (· * x3 (ix2 (0 : Fin 1) h)) ?_
  show Ideal.tanh (_ + _) = _
  rw [energy_apply, bias_apply]

end Cert.KernelIdeal.Pay

end
-- ==== Proof.KHost.lean ====
/-
  The three arrays the host computes before the region, as functions of the arguments and read at an index.

    weT[k, h]   = W[h, 512 + k]                                   the encoder half of the weights, transposed
    bias[q, h]  = Σ_k hid[0, q, k] · W[h, k]  +  bA[h]            the hidden state's term of the pre-activation, with the bias
    betaRow[0, h] = beta[h, 0]                                    the output projection as a row
-/
import proofs.«122231_j51127290691658_2_alg».proof.Proof.Gen.KernelIdeal.Frame
import proofs.«122231_j51127290691658_2_alg».proof.Proof.Spec
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx
open scoped BigOperators

/-- Columns 512 … 1023 of the weights, transposed. -/
def weT (W : FVec Ideal S512x1024 .f32) : FVec Ideal S512x512 .f32 :=
  transpose S512x512 [1, 0] (extractStridedSlice S512x512 ![0, 512] W slices_S512x1024_S512x512_0_512) transposes_S512x512_S512x512_1_0

/-- The hidden state against columns 0 … 511 of the weights, plus the bias vector on every row. -/
def bias (hid : FVec Ideal S1x64x512 .f32) (W : FVec Ideal S512x1024 .f32) (bA : FVec Ideal S512 .f32) : FVec Ideal S64x512 .f32 :=
  addf (Host.dotGeneral (F := Ideal) dot_S64x512_S512x512_S64x512_1_0_0_1_n_n none
      (shapeCast S64x512 hid shapeCasts_S1x64x512_S64x512)
      (transpose S512x512 [1, 0] (extractStridedSlice S512x512 ![0, 0] W slices_S512x1024_S512x512_0_0) transposes_S512x512_S512x512_1_0))
    (broadcastInDim S64x512 ![0, 1] bcast_S1x512_S64x512_0_1 (broadcastInDim S1x512 ![1] bcast_S512_S1x512_1 bA))

/-- The projection column as a row. -/
def betaRow (beta : FVec Ideal S512x1 .f32) : FVec Ideal S1x512 .f32 :=
  transpose S1x512 [1, 0] beta transposes_S512x1_S1x512_1_0

variable (m : (ℓ : Loc nD τ sig) → Buf (Elt Ideal) ℓ)

/-! ## What the region finds in the three arrays -/

theorem V_main_v2 (c : Dev nD) : (V m c main_v2 : S512x512.Idx → EReal) = weT (m ((c : Thread nD τ).loc main_arg2)) := by
  show StableHlo.after hostOps0 (fun b => m (c, b)) (Proc.devRef .tc main_v2) = _
  after_results
  rfl

theorem V_main_v8 (c : Dev nD) : (V m c main_v8 : S64x512.Idx → EReal)
    = bias (m ((c : Thread nD τ).loc main_arg0)) (m ((c : Thread nD τ).loc main_arg2)) (m ((c : Thread nD τ).loc main_arg3)) := by
  show StableHlo.after hostOps0 (fun b => m (c, b)) (Proc.devRef .tc main_v8) = _
  after_results
  rfl

theorem V_main_v9 (c : Dev nD) : (V m c main_v9 : S1x512.Idx → EReal) = betaRow (m ((c : Thread nD τ).loc main_arg4)) := by
  show StableHlo.after hostOps0 (fun b => m (c, b)) (Proc.devRef .tc main_v9) = _
  after_results
  rfl

/-! ## Read at an index -/

theorem weT_apply (W : FVec Ideal S512x1024 .f32) (k h : Fin 512) : weT W (ix2 k h) = W (ix2 h (Cert.Attn.hi k)) := by
  unfold weT
  rw [transpose_ix2_apply]
  exact slice2_axis1_apply 512 W slices_S512x1024_S512x512_0_512 h k (Cert.Attn.hi k) rfl

theorem betaRow_apply (beta : FVec Ideal S512x1 .f32) (h : Fin 512) :
    betaRow beta (ix2 (0 : Fin 1) h) = beta (ix2 h (0 : Fin 1)) := by
  unfold betaRow
  rw [transpose_ix2_apply]

theorem hd_lhs0 (i : S64x512.Idx) (q : dot_S64x512_S512x512_S64x512_1_0_0_1_n_n.contr.Idx) : (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem hd_lhs1 (i : S64x512.Idx) (q : dot_S64x512_S512x512_S64x512_1_0_0_1_n_n.contr.Idx) : (dot_S64x512_S512x512_S64x512_1_0_0_1_n_n.lhsIdx i q 1).val = (q ⟨0, by decide⟩).val :=
  dot_S64x512_S512x512_S64x512_1_0_0_1_n_n.lhsIdx_val_of_single rfl i q
theorem hd_rhs0 (i : S64x512.Idx) (q : dot_S64x512_S512x512_S64x512_1_0_0_1_n_n.contr.Idx) : (dot_S64x512_S512x512_S64x512_1_0_0_1_n_n.rhsIdx i q 0).val = (q ⟨0, by decide⟩).val :=
  dot_S64x512_S512x512_S64x512_1_0_0_1_n_n.rhsIdx_val_of_single rfl i q
theorem hd_rhs1 (i : S64x512.Idx) (q : dot_S64x512_S512x512_S64x512_1_0_0_1_n_n.contr.Idx) : (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The host's [64, 512] × [512, 512] product at (q, h). -/
theorem hdot_apply (Lh : FVec Ideal S64x512 .f32) (Rh : FVec Ideal S512x512 .f32) (q : Fin 64) (h : Fin 512) :
    Host.dotGeneral (F := Ideal) dot_S64x512_S512x512_S64x512_1_0_0_1_n_n none Lh Rh (ix2 q h) = ∑ k : Fin 512, Lh (ix2 q k) * Rh (ix2 k h) := by
  simp only [Host.dotGeneral]
  rw [Ideal.dotGeneral_apply, ← Equiv.sum_comp (ValueIdx.contrEquiv1 dot_S64x512_S512x512_S64x512_1_0_0_1_n_n 512 rfl rfl).symm]
  refine Finset.sum_congr rfl fun k _ => ?_
  have hk := ValueIdx.contrEquiv1_symm_val dot_S64x512_S512x512_S64x512_1_0_0_1_n_n 512 rfl rfl k
  have el : dot_S64x512_S512x512_S64x512_1_0_0_1_n_n.lhsIdx (ix2 q h) ((ValueIdx.contrEquiv1 dot_S64x512_S512x512_S64x512_1_0_0_1_n_n 512 rfl rfl).symm k) = ix2 q k := funext fun a => Fin.ext (by
    match a with
    | ⟨0, _⟩ => exact hd_lhs0 _ _
    | ⟨1, _⟩ => exact (hd_lhs1 _ _).trans hk)
  have er : dot_S64x512_S512x512_S64x512_1_0_0_1_n_n.rhsIdx (ix2 q h) ((ValueIdx.contrEquiv1 dot_S64x512_S512x512_S64x512_1_0_0_1_n_n 512 rfl rfl).symm k) = ix2 k h := funext fun a => Fin.ext (by
    match a with
    | ⟨0, _⟩ => exact (hd_rhs0 _ _).trans hk
    | ⟨1, _⟩ => exact hd_rhs1 _ _)
  rw [el, er]

/-- The bias vector broadcast to a row and then over the 64 rows, at (q, h). -/
theorem bvec_apply (bA : FVec Ideal S512 .f32) (q : Fin 64) (h : Fin 512) :
    broadcastInDim S64x512 ![0, 1] bcast_S1x512_S64x512_0_1 (broadcastInDim S1x512 ![1] bcast_S512_S1x512_1 bA) (ix2 q h) = bA (ix1 h) := by
  refine (broadcastInDim_apply _ bcast_S1x512_S64x512_0_1 _ (ix2 q h) (ix2 (0 : Fin 1) h) (fun a => match a with
    | ⟨0, _⟩ => by show 0 = if (1 : Nat) = 1 then 0 else q.val; rw [if_pos rfl]
    | ⟨1, _⟩ => by show h.val = if (512 : Nat) = 1 then 0 else h.val; rw [if_neg (by decide)])).trans ?_
  exact broadcastInDim_apply _ bcast_S512_S1x512_1 bA (ix2 (0 : Fin 1) h) (ix1 h) (fun a => match a with
    | ⟨0, _⟩ => by show h.val = if (512 : Nat) = 1 then 0 else h.val; rw [if_neg (by decide)])

theorem bias_apply (hid : FVec Ideal S1x64x512 .f32) (W : FVec Ideal S512x1024 .f32) (bA : FVec Ideal S512 .f32) (q : Fin 64) (h : Fin 512) :
    bias hid W bA (ix2 q h) = Cert.Attn.hidTerm hid W bA q h := by
  unfold bias Cert.Attn.hidTerm
  rw [addf_apply, hdot_apply, bvec_apply]
  refine congrArg (· + bA (ix1 h)) (Finset.sum_congr rfl fun k _ => ?_)
  rw [shapeCast_1ab_ab_apply, transpose_ix2_apply]
  exact congrArg (hid (ix3 (0 : Fin 1) q k) * ·) (slice2_axis1_apply 0 W slices_S512x1024_S512x512_0_0 h k (Cert.Attn.lo k) (Nat.zero_add _).symm)

end Cert.KernelIdeal.HostPre

end
-- ==== Proof.KBlocks.lean ====
/-
  From blocks to the array: what the region leaves in the [1024, 64] score array.

  Grid point t loads rows 32t … 32t + 31 of the encoder outputs and the three whole host-computed arrays, and writes back
  rows 32t … 32t + 31 of the scores. Each written block is the restriction of ONE function of the argument arrays — the
  specification's `score` — and the 32 blocks tile the array, so the array ends holding that function.
-/
import proofs.«122231_j51127290691658_2_alg».proof.Proof.Gen.KernelIdeal.Frame
import proofs.«122231_j51127290691658_2_alg».proof.Proof.Spec
import proofs.«122231_j51127290691658_2_alg».proof.Proof.KPayload
import proofs.«122231_j51127290691658_2_alg».proof.Proof.KHost
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The score array as a function of the argument arrays at launch. -/
def scores (c : Dev nD) : S1024x64.Idx → EReal := fun i =>
  Cert.Attn.score (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The index maps over the grid: the encoder window and the output window move with the point along axis 0; the other
    three windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks -/

/-- The encoder block at point t is rows 32t … 32t + 31 of the encoder outputs. -/
theorem blk0_apply (c : Dev nD) (t : Fin cfg0.N) (p : Fin 32) (q : Fin 64) (k : Fin 512) (s : Fin 1024)
    (hs : s.val = 32 * t.val + p.val) :
    (iblk m c 0 t : FVec Ideal S32x64x512 .f32) (ix3 p q k)
      = (m ((c : Thread nD τ).loc main_arg1) : S1024x64x512.Idx → EReal) (ix3 s q k) := by
  obtain ⟨e0, e1, e2, -⟩ := idx_facts t
  unfold iblk
  rw [View.read_apply]
  show V m c main_arg1 _ = _
  rw [V_main_arg1]
  refine congrArg _ (funext fun a => Fin.ext ?_)
  match a with
  | ⟨0, _⟩ => show win0_0.index t (0 : Fin 3) * 32 + 1 * p.val = s.val; rw [e0, hs]; omega
  | ⟨1, _⟩ => show win0_0.index t (1 : Fin 3) * 64 + 1 * q.val = q.val; rw [e1]; omega
  | ⟨2, _⟩ => show win0_0.index t (2 : Fin 3) * 512 + 1 * k.val = k.val; rw [e2]; omega

/-- The weight block at every point is the whole transposed encoder half. -/
theorem blk1_apply (c : Dev nD) (t : Fin cfg0.N) (k h : Fin 512) :
    (iblk m c 1 t : FVec Ideal S512x512 .f32) (ix2 k h)
      = (m ((c : Thread nD τ).loc main_arg2) : S512x1024.Idx → EReal) (ix2 h (Cert.Attn.hi k)) := by
  obtain ⟨-, -, -, e0, e1, -⟩ := idx_facts t
  unfold iblk
  rw [View.read_apply]
  show V m c main_v2 _ = _
  rw [HostPre.V_main_v2]
  refine Eq.trans (congrArg (HostPre.weT _) (funext fun a => Fin.ext ?_)) (HostPre.weT_apply _ k h)
  match a with
  | ⟨0, _⟩ => show win0_1.index t (0 : Fin 2) * 512 + 1 * k.val = k.val; rw [e0]; omega
  | ⟨1, _⟩ => show win0_1.index t (1 : Fin 2) * 512 + 1 * h.val = h.val; rw [e1]; omega

/-- The bias block at every point is the whole hidden-state term. -/
theorem blk2_apply (c : Dev nD) (t : Fin cfg0.N) (q : Fin 64) (h : Fin 512) :
    (iblk m c 2 t : FVec Ideal S64x512 .f32) (ix2 q h)
      = Cert.Attn.hidTerm (m ((c : Thread nD τ).loc main_arg0)) (m ((c : Thread nD τ).loc main_arg2)) (m ((c : Thread nD τ).loc main_arg3)) q h := by
  obtain ⟨-, -, -, -, -, e0, e1, -⟩ := idx_facts t
  unfold iblk
  rw [View.read_apply]
  show V m c main_v8 _ = _
  rw [HostPre.V_main_v8]
  refine Eq.trans (congrArg (HostPre.bias _ _ _) (funext fun a => Fin.ext ?_)) (HostPre.bias_apply _ _ _ q h)
  match a with
  | ⟨0, _⟩ => show win0_2.index t (0 : Fin 2) * 64 + 1 * q.val = q.val; rw [e0]; omega
  | ⟨1, _⟩ => show win0_2.index t (1 : Fin 2) * 512 + 1 * h.val = h.val; rw [e1]; omega

/-- The row block at every point is the whole projection row. -/
theorem blk3_apply (c : Dev nD) (t : Fin cfg0.N) (h : Fin 512) :
    (iblk m c 3 t : FVec Ideal S1x512 .f32) (ix2 (0 : Fin 1) h)
      = (m ((c : Thread nD τ).loc main_arg4) : S512x1.Idx → EReal) (ix2 h (0 : Fin 1)) := by
  obtain ⟨-, -, -, -, -, -, -, e0, e1, -⟩ := idx_facts t
  unfold iblk
  rw [View.read_apply]
  show V m c main_v9 _ = _
  rw [HostPre.V_main_v9]
  refine Eq.trans (congrArg (HostPre.betaRow _) (funext fun a => Fin.ext ?_)) (HostPre.betaRow_apply _ h)
  match a with
  | ⟨0, _⟩ => show win0_3.index t (0 : Fin 2) * 1 + 1 * 0 = 0; rw [e0]
  | ⟨1, _⟩ => show win0_3.index t (1 : Fin 2) * 512 + 1 * h.val = h.val; rw [e1]; omega

/-! ## The output block -/

/-- Entry (p, q) of the output block at point t sits at row 32t + p, column q of the score array. -/
theorem emb4 (t : Fin cfg0.N) (p : Fin 32) (q : Fin 64) (s : Fin 1024) (hs : s.val = 32 * t.val + p.val) :
    (((cfg0.win 4).blk t).view.emb (ix2 p q) : S1024x64.Idx) = ix2 s q := by
  obtain ⟨-, -, -, -, -, -, -, -, -, e0, e1⟩ := idx_facts t
  funext a
  apply Fin.ext
  match a with
  | ⟨0, _⟩ => show win0_4.index t (0 : Fin 2) * 32 + 1 * p.val = s.val; rw [e0, hs]; omega
  | ⟨1, _⟩ => show win0_4.index t (1 : Fin 2) * 64 + 1 * q.val = q.val; rw [e1]; omega

/-- What point t writes back is block t of the scores. -/
theorem flushed_eq (c : Dev nD) (t : Fin cfg0.N) :
    (dats m 0 c).flushed 4 t = ((cfg0.win 4).blk t).view.read (Elt Ideal) (scores m c) := by
  show (cfg0.win 4).cut (grid0.coords t) ((dats m 0 c).after 4 t) = _
  rw [after0_4]
  unfold out0_4
  rw [View.canon_unit_zero hz2]
  simp only [View.ld_unit_zero (S := S32x64x512) hz3, View.ld_unit_zero (S := S512x512) hz2,
    View.ld_unit_zero (S := S64x512) hz2, View.ld_unit_zero (S := S1x512) hz2]
  funext j
  obtain ⟨p, q, rfl⟩ : ∃ (p : Fin 32) (q : Fin 64), j = ix2 p q := ⟨j 0, j 1, eq_ix2 j⟩
  have ht : t.val < 32 := lt_of_lt_of_eq t.isLt N_0
  show k0_pay1 (iblk m c 0 t) (iblk m c 1 t) (iblk m c 2 t) (iblk m c 3 t) (ix2 p q)
    = scores m c (((cfg0.win 4).blk t).view.emb (ix2 p q))
  rw [emb4 t p q ⟨32 * t.val + p.val, by have := p.isLt; omega⟩ rfl]
  refine (Pay.pay_apply _ _ _ _ p q).trans ?_
  show _ = Cert.Attn.score _ _ _ _ _ (⟨32 * t.val + p.val, _⟩ : Fin 1024) q
  unfold Cert.Attn.score Cert.Attn.encTerm
  refine Finset.sum_congr rfl fun h _ => ?_
  rw [blk2_apply, blk3_apply]
  refine congrArg (fun e => Ideal.tanh (e + _) * _) (Finset.sum_congr rfl fun k _ => ?_)
  rw [blk0_apply m c t p q k ⟨32 * t.val + p.val, by have := p.isLt; omega⟩ rfl, blk1_apply]

/-- An index of the score array is in point t's block iff each coordinate is in the block's range on its axis. -/
theorem mem_blk (t : Fin cfg0.N) (i : S1024x64.Idx) :
    i ∈ ((cfg0.win 4).blk t).view.set ↔ ∀ a : Fin 2, win0_4.index t a * S32x64.size a ≤ (i a).val
      ∧ (i a).val < win0_4.index t a * S32x64.size a + S32x64.size a := by
  show i ∈ ((View.whole main_v10).slice (win0_4.rect t)).set ↔ _
  rw [View.set_slice_whole, Rect.mem_set_unit]
  exact Iff.rfl

/-- Every index of the score array is in the block of the point its row falls to: point (row / 32). -/
theorem cover (i : S1024x64.Idx) : ∃ t : Fin cfg0.N, (cfg0.win 4).flush t = true ∧ i ∈ ((cfg0.win 4).blk t).view.set := by
  have hi0 : (i 0).val < 1024 := (i 0).isLt
  have hi1 : (i 1).val < 64 := (i 1).isLt
  have hN : cfg0.N = 32 := N_0
  have hlt : (i 0).val / 32 < cfg0.N := by rw [hN]; omega
  obtain ⟨-, -, -, -, -, -, -, -, -, e0, e1⟩ := idx_facts ⟨(i 0).val / 32, hlt⟩
  refine ⟨⟨(i 0).val / 32, hlt⟩, flush0_4 _, ?_⟩
  rw [mem_blk]
  intro a
  match a with
  | ⟨0, _⟩ =>
    show win0_4.index ⟨(i 0).val / 32, hlt⟩ (0 : Fin 2) * 32 ≤ (i 0).val
      ∧ (i 0).val < win0_4.index ⟨(i 0).val / 32, hlt⟩ (0 : Fin 2) * 32 + 32
    rw [e0]
    show (i 0).val / 32 * 32 ≤ (i 0).val ∧ (i 0).val < (i 0).val / 32 * 32 + 32
    omega
  | ⟨1, _⟩ =>
    show win0_4.index ⟨(i 0).val / 32, hlt⟩ (1 : Fin 2) * 64 ≤ (i 1).val
      ∧ (i 1).val < win0_4.index ⟨(i 0).val / 32, hlt⟩ (1 : Fin 2) * 64 + 64
    rw [e1]
    omega

/-- The score array after the region. -/
theorem final (c : Dev nD) : (dats m 0 c).arrAt 4 cfg0.N = scores m c :=
  (dats m 0 c).arrAt_eq_of_cover 4 (scores m c) (fun t _ => flushed_eq m c t) (cover)

end Cert.KernelIdeal.Blocks

end
-- ==== Proof.KTail.lean ====
/-
  The host lines after the region, as one function of the [1024, 64] score array, read at an index.

  They are the softmax over the sequence axis: the column maxima (a max-reduce from −∞ over axis 0) broadcast back over
  the rows and subtracted, the exponential, the column sums (an add-reduce from 0 over axis 0) broadcast back and divided
  by, and a unit axis put in the middle of the result. At (s, 0, b) that is the specification's `softmax` of the scores.
-/
import proofs.«122231_j51127290691658_2_alg».proof.Proof.Gen.KernelIdeal
import proofs.«122231_j51127290691658_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.KernelIdeal.Tail

open Cert.KernelIdeal Cert.KernelIdeal.Gen Idealize.ShloMosaic Idealize.ShloMosaic.ValueIdx
open scoped BigOperators

/-- Dropping axis 0 of a [1024, 64] array leaves [64]. -/
theorem red0 : S1024x64.Reduces [0] S64 := by decide

/-- The column maxima, on every row. -/
def maxB (sc : FVec Ideal S1024x64 .f32) : FVec Ideal S1024x64 .f32 :=
  broadcastInDim S1024x64 ![0, 1] bcast_S1x64_S1024x64_0_1 (broadcastInDim S1x64 ![1] bcast_S64_S1x64_1
    (Host.reduce (FloatOps.maximumf (F := Ideal) (φ := .f32)) sc (constant (F := Ideal) S_ .f32 0xFF800000#32) reducesTo_S1024x64_S64_d0 h_S_))

/-- The shifted scores, exponentiated. -/
def ex (sc : FVec Ideal S1024x64 .f32) : FVec Ideal S1024x64 .f32 := Host.exp (F := Ideal) (subf sc (maxB sc))

/-- The column sums of those, on every row. -/
def sumB (sc : FVec Ideal S1024x64 .f32) : FVec Ideal S1024x64 .f32 :=
  broadcastInDim S1024x64 ![0, 1] bcast_S1x64_S1024x64_0_1 (broadcastInDim S1x64 ![1] bcast_S64_S1x64_1
    (Host.reduceAdd (F := Ideal) (ex sc) (constant (F := Ideal) S_ .f32 0x00000000#32) reducesTo_S1024x64_S64_d0 h_S_))

/-- The result [1024, 1, 64]. -/
def tail (sc : FVec Ideal S1024x64 .f32) : FVec Ideal S1024x1x64 .f32 :=
  broadcastInDim S1024x1x64 ![0, 2] bcast_S1024x64_S1024x1x64_0_2 (Host.divf (F := Ideal) (ex sc) (sumB sc))

/-- A [64] vector made a row and broadcast over the 1024 rows, at (s, b). -/
theorem rows_apply (v : FVec Ideal S64 .f32) (s : Fin 1024) (b : Fin 64) :
    broadcastInDim S1024x64 ![0, 1] bcast_S1x64_S1024x64_0_1 (broadcastInDim S1x64 ![1] bcast_S64_S1x64_1 v) (ix2 s b) = v (ix1 b) := by
  refine (broadcastInDim_apply _ bcast_S1x64_S1024x64_0_1 _ (ix2 s b) (ix2 (0 : Fin 1) b) (fun a => match a with
    | ⟨0, _⟩ => by show 0 = if (1 : Nat) = 1 then 0 else s.val; rw [if_pos rfl]
    | ⟨1, _⟩ => by show b.val = if (64 : Nat) = 1 then 0 else b.val; rw [if_neg (by decide)])).trans ?_
  exact broadcastInDim_apply _ bcast_S64_S1x64_1 v (ix2 (0 : Fin 1) b) (ix1 b) (fun a => match a with
    | ⟨0, _⟩ => by show b.val = if (64 : Nat) = 1 then 0 else b.val; rw [if_neg (by decide)])

/-- The max-reduce over axis 0, at column b: the fold of max from −∞ over the column. -/
theorem colMax_apply (sc : FVec Ideal S1024x64 .f32) (b : Fin 64) :
    Host.reduce (FloatOps.maximumf (F := Ideal) (φ := .f32)) sc (constant (F := Ideal) S_ .f32 0xFF800000#32) reducesTo_S1024x64_S64_d0 h_S_ (ix1 b)
      = Cert.Attn.colMax (fun s b => sc (ix2 s b)) b := by
  refine (Host.reduce_eq_fold_single _ sc _ reducesTo_S1024x64_S64_d0 red0 h_S_ (ix1 b)).trans ?_
  show (Finset.univ : Finset (Fin 1024)).fold max (Ideal.ofBits .f32 0xFF800000#32) (sc ∘ red0.lift (ix1 b)) = _
  unfold Cert.Attn.colMax
  exact congrArg (fun f => (Finset.univ : Finset (Fin 1024)).fold max (Ideal.ofBits .f32 0xFF800000#32) f)
    (funext fun s => congrArg sc (funext fun a => Fin.ext (by
      match a with
      | ⟨0, _⟩ => rfl
      | ⟨1, _⟩ => rfl)))

/-- The add-reduce over axis 0, at column b: the starting value plus the column's sum. -/
theorem colSum_apply (x : FVec Ideal S1024x64 .f32) (b : Fin 64) :
    Host.reduceAdd (F := Ideal) x (constant (F := Ideal) S_ .f32 0x00000000#32) reducesTo_S1024x64_S64_d0 h_S_ (ix1 b)
      = Ideal.ofBits .f32 0x00000000#32 + ∑ s : Fin 1024, x (ix2 s b) := by
  simp only [Host.reduceAdd, Ideal.hostReduceAdd_def]
  rw [Ideal.hostReduceAdd_single reducesTo_S1024x64_S64_d0 red0]
  refine congrArg (_ + ·) (Finset.sum_congr rfl fun s _ => ?_)
  exact congrArg x (funext fun a => Fin.ext (by
    match a with
    | ⟨0, _⟩ => rfl
    | ⟨1, _⟩ => rfl))

theorem maxB_apply (sc : FVec Ideal S1024x64 .f32) (s : Fin 1024) (b : Fin 64) :
    maxB sc (ix2 s b) = Cert.Attn.colMax (fun s b => sc (ix2 s b)) b := by
  unfold maxB
  rw [rows_apply, colMax_apply]

theorem ex_apply (sc : FVec Ideal S1024x64 .f32) (s : Fin 1024) (b : Fin 64) :
    ex sc (ix2 s b) = Ideal.exp (sc (ix2 s b) - Cert.Attn.colMax (fun s b => sc (ix2 s b)) b) := by
  show Ideal.exp (sc (ix2 s b) - maxB sc (ix2 s b)) = _
  rw [maxB_apply]

theorem sumB_apply (sc : FVec Ideal S1024x64 .f32) (s : Fin 1024) (b : Fin 64) :
    sumB sc (ix2 s b) = Ideal.ofBits .f32 0x00000000#32
      + ∑ s' : Fin 1024, Ideal.exp (sc (ix2 s' b) - Cert.Attn.colMax (fun s b => sc (ix2 s b)) b) := by
  unfold sumB
  rw [rows_apply, colSum_apply]
  exact congrArg (_ + ·) (Finset.sum_congr rfl fun s' _ => ex_apply sc s' b)

/-- The host lines after the region compute the softmax of the scores. -/
theorem tail_apply (sc : FVec Ideal S1024x64 .f32) (s : Fin 1024) (u : Fin 1) (b : Fin 64) :
    tail sc (ix3 s u b) = Cert.Attn.softmax (fun s b => sc (ix2 s b)) s b := by
  unfold tail
  refine (broadcastInDim_apply _ bcast_S1024x64_S1024x1x64_0_2 _ (ix3 s u b) (ix2 s b) (fun a => match a with
    | ⟨0, _⟩ => by show s.val = if (1024 : Nat) = 1 then 0 else s.val; rw [if_neg (by decide)]
    | ⟨1, _⟩ => by show b.val = if (64 : Nat) = 1 then 0 else b.val; rw [if_neg (by decide)])).trans ?_
  show Ideal.div (ex sc (ix2 s b)) (sumB sc (ix2 s b)) = _
  rw [ex_apply, sumB_apply]
  rfl

end Cert.KernelIdeal.Tail

end
-- ==== Proof.KRun.lean ====
/-
  The idealized kernel's run, read: the result array ends at the specification's function of the argument arrays.

  The frame run leaves the score array at `scores` (the 32 written blocks tile it), every other buffer as the host lines
  after the region leave it. Those lines are the softmax of the score array, so the result is the softmax of the scores.
-/
import proofs.«122231_j51127290691658_2_alg».proof.Proof.Gen.KernelIdeal.Frame
import proofs.«122231_j51127290691658_2_alg».proof.Proof.Spec
import proofs.«122231_j51127290691658_2_alg».proof.Proof.KBlocks
import proofs.«122231_j51127290691658_2_alg».proof.Proof.KTail
import Idealize.ShloMosaic.Lib.StableHlo.Run
import Idealize.ShloMosaic.Lib.ValueIdx

noncomputable section

namespace Cert.KernelIdeal.KRun

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The softmax of the scores is the specification's result. -/
theorem tail_scores (c : Dev nD) :
    Tail.tail (Blocks.scores m c)
      = Cert.Attn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨s, u, b, rfl⟩ : ∃ (s : Fin 1024) (u : Fin 1) (b : Fin 64), i = ix3 s u b := ⟨i 0, i 1, i 2, eq_ix3 i⟩
  rw [Tail.tail_apply]
  rfl

/-- What the host lines after the region leave in the result array. -/
theorem result_eq (c : Dev nD) :
    (Pipeline.afterTail₀ cfgs (dats m) 0 (V0 m) [hostOps1] c main_v20 : S1024x1x64.Idx → EReal)
      = Cert.Attn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v20) = _
  after_results
  have hw : (Pipeline.withArrays (cfgs 0).spec c (V0 m c) (fun w => (dats m 0 c).arrAt w (cfgs 0).N)
      (Proc.devRef .tc main_v10) : S1024x64.Idx → EReal) = Blocks.scores m c :=
    (Pipeline.withArrays_arr spec0 launch0.win.arr_inj c _ _ 4).trans (Blocks.final m c)
  rw [hw]
  exact tail_scores m c

/-- Every weakly fair execution of the idealized kernel's @main terminates with the result array at the specification's
    function of the arguments, the arguments unchanged. -/
theorem run : θ_run defs (onTc (τ := τ) (main (F := Ideal))) ⟨m, fun _ => 0, ρ⟩ (fun r => ∀ c : Dev nD,
      r.2.mem ((c.tc : Thread nD τ).loc main_v20)
        = Cert.Attn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.RefValue.lean ====
/-
  The reference's result, stage by stage, is the specification's function of the arguments.

  The reference broadcasts the hidden state over the sequence, concatenates it with the encoder outputs along the last
  axis, and contracts the 1024 joined entries against a whole row of the weights. Columns 0 … 511 of that sum read the
  hidden state and columns 512 … 1023 the encoder outputs, so the sum is the hidden-state term plus the encoder term; with
  the bias added on the other side of the encoder term this is the specification's pre-activation. The rest — tanh, the
  projection, the softmax over the sequence — is the specification's text at the reference's [1024, 1, 64] layout, with one
  extra maximum against −∞ that changes nothing.
-/
import proofs.«122231_j51127290691658_2_alg».proof.Proof.Gen.ReferenceIdeal.Read
import proofs.«122231_j51127290691658_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.Attn
open scoped BigOperators

variable (x0 : FVec Ideal S1x64x512 .f32) (x1 : FVec Ideal S1024x64x512 .f32) (x2 : FVec Ideal S512x1024 .f32)
  (x3 : FVec Ideal S512 .f32) (x4 : FVec Ideal S512x1 .f32)

/-! ## The concatenation -/

/-- In its first 512 columns the concatenation reads the hidden state (whatever the sequence position). -/
theorem cat_lo (s : Fin 1024) (b : Fin 64) (k : Fin 512) :
    val_main_v1 (F := Ideal) x0 x1 (ix3 s b (lo k)) = x0 (ix3 (0 : Fin 1) b k) := by
  unfold val_main_v1
  refine (concatenate_pair_apply_left _ _ _ concatenates_S1024x64x512_S1024x64x512_S1024x64x1024_d2 (ix3 s b (lo k)) rfl (ix3 s b k)
    (fun a => match a with
      | ⟨0, _⟩ => rfl
      | ⟨1, _⟩ => rfl
      | ⟨2, _⟩ => rfl)).trans ?_
  rw [val_main_v0_apply]
  exact congrArg x0 (funext fun a => Fin.ext (by
    match a with
    | ⟨0, _⟩ => rfl
    | ⟨1, _⟩ => rfl
    | ⟨2, _⟩ => rfl))

/-- In its last 512 columns it reads the encoder outputs. -/
theorem cat_hi (s : Fin 1024) (b : Fin 64) (k : Fin 512) :
    val_main_v1 (F := Ideal) x0 x1 (ix3 s b (hi k)) = x1 (ix3 s b k) := by
  unfold val_main_v1
  exact concatenate_pair_apply_right _ _ _ concatenates_S1024x64x512_S1024x64x512_S1024x64x1024_d2 (ix3 s b (hi k)) rfl rfl (ix3 s b k)
    (fun a => match a with
      | ⟨0, _⟩ => fun _ => rfl
      | ⟨1, _⟩ => fun _ => rfl
      | ⟨2, _⟩ => fun h => absurd rfl h)
    (show k.val + 512 = 512 + k.val by omega)

/-! ## The pre-activation, the scores -/

/-- The 1024-term contraction splits into the hidden-state half and the encoder half. -/
theorem v2_apply (s : Fin 1024) (b : Fin 64) (h : Fin 512) :
    val_main_v2 (F := Ideal) x0 x1 x2 (ix3 s b h)
      = (∑ k : Fin 512, x0 (ix3 (0 : Fin 1) b k) * x2 (ix2 h (lo k))) + ∑ k : Fin 512, x1 (ix3 s b k) * x2 (ix2 h (hi k)) := by
  rw [val_main_v2_apply, sum_halves]
  have el : ∀ k : Fin 1024, lidx_main_v2 (ix3 s b h) k = ix3 s b k := fun k => funext fun a => Fin.ext (by
    match a with
    | ⟨0, _⟩ => rfl
    | ⟨1, _⟩ => rfl
    | ⟨2, _⟩ => rfl)
  have er : ∀ k : Fin 1024, ridx_main_v2 (ix3 s b h) k = ix2 h k := fun k => funext fun a => Fin.ext (by
    match a with
    | ⟨0, _⟩ => rfl
    | ⟨1, _⟩ => rfl)
  refine congrArg₂ (· + ·) (Finset.sum_congr rfl fun k _ => ?_) (Finset.sum_congr rfl fun k _ => ?_)
  · rw [el, er, cat_lo]
  · rw [el, er, cat_hi]

/-- The bias vector broadcast over the sequence and the batch, at (s, b, h). -/
theorem v4_apply (s : Fin 1024) (b : Fin 64) (h : Fin 512) : val_main_v4 (F := Ideal) x3 (ix3 s b h) = x3 (ix1 h) := by
  rw [val_main_v4_apply, val_main_v3_apply]
  exact congrArg x3 (funext fun a => Fin.ext (by
    match a with
    | ⟨0, _⟩ => rfl))

/-- The pre-activation is the specification's. -/
theorem v5_apply (s : Fin 1024) (b : Fin 64) (h : Fin 512) :
    val_main_v5 (F := Ideal) x0 x1 x2 x3 (ix3 s b h) = encTerm x1 x2 s b h + hidTerm x0 x2 x3 b h := by
  rw [val_main_v5_apply, v2_apply, v4_apply]
  exact regroup _ _ _

/-- The projected, transposed scores are the specification's. -/
theorem v8_apply (s : Fin 1024) (u : Fin 1) (b : Fin 64) :
    val_main_v8 (F := Ideal) x0 x1 x2 x3 x4 (ix3 s u b) = score x0 x1 x2 x3 x4 s b := by
  obtain rfl : u = 0 := Subsingleton.elim _ _
  rw [val_main_v8_apply, val_main_v7_apply]
  unfold score
  refine Finset.sum_congr rfl fun h _ => ?_
  have el : lidx_main_v7 (idx_main_v8 (ix3 s (0 : Fin 1) b)) h = ix3 s b h := funext fun a => Fin.ext (by
    match a with
    | ⟨0, _⟩ => rfl
    | ⟨1, _⟩ => rfl
    | ⟨2, _⟩ => rfl)
  have er : ridx_main_v7 (idx_main_v8 (ix3 s (0 : Fin 1) b)) h = ix2 h (0 : Fin 1) := funext fun a => Fin.ext (by
    match a with
    | ⟨0, _⟩ => rfl
    | ⟨1, _⟩ => rfl)
  rw [el, er, val_main_v6_apply, v5_apply]
  rfl

/-! ## The softmax -/

/-- Dropping axis 0 of a [1024, 1, 64] array leaves [1, 64]. -/
theorem red0 : S1024x1x64.Reduces [0] S1x64 := by decide

/-- The column maximum. -/
theorem v9_apply (u : Fin 1) (b : Fin 64) :
    val_main_v9 (F := Ideal) x0 x1 x2 x3 x4 (ix2 u b) = colMax (score x0 x1 x2 x3 x4) b := by
  unfold val_main_v9
  refine (Host.reduce_eq_fold_single _ _ _ reducesTo_S1024x1x64_S1x64_d0 red0 h_S_ (ix2 u b)).trans ?_
  show (Finset.univ : Finset (Fin 1024)).fold max (Ideal.ofBits .f32 0xFF800000#32)
    (val_main_v8 (F := Ideal) x0 x1 x2 x3 x4 ∘ red0.lift (ix2 u b)) = _
  unfold colMax
  refine congrArg (fun f => (Finset.univ : Finset (Fin 1024)).fold max (Ideal.ofBits .f32 0xFF800000#32) f) (funext fun s => ?_)
  refine Eq.trans (congrArg (val_main_v8 (F := Ideal) x0 x1 x2 x3 x4) (?_ : red0.lift (ix2 u b) s = ix3 s u b)) (v8_apply x0 x1 x2 x3 x4 s u b)
  exact funext fun a => Fin.ext (by
    match a with
    | ⟨0, _⟩ => rfl
    | ⟨1, _⟩ => rfl
    | ⟨2, _⟩ => rfl)

/-- The maximum against −∞, broadcast back over the sequence: still the column maximum. -/
theorem v13_apply (s : Fin 1024) (u : Fin 1) (b : Fin 64) :
    val_main_v13 (F := Ideal) x0 x1 x2 x3 x4 (ix3 s u b) = colMax (score x0 x1 x2 x3 x4) b := by
  rw [val_main_v13_apply, val_main_v12_apply, val_main_v11_apply, val_main_v10_apply, val_main_cst_0_apply]
  have e : idx_main_v12 (idx_main_v13 (ix3 s u b)) = ix2 (0 : Fin 1) b := funext fun a => Fin.ext (by
    match a with
    | ⟨0, _⟩ => rfl
    | ⟨1, _⟩ => rfl)
  rw [e, v9_apply]
  exact max_init_fold _ _ _

/-- The shifted scores, exponentiated. -/
theorem v15_apply (s : Fin 1024) (u : Fin 1) (b : Fin 64) :
    val_main_v15 (F := Ideal) x0 x1 x2 x3 x4 (ix3 s u b)
      = Ideal.exp (score x0 x1 x2 x3 x4 s b - colMax (score x0 x1 x2 x3 x4) b) := by
  rw [val_main_v15_apply, val_main_v14_apply, v8_apply, v13_apply]
  rfl

/-- The column sum, broadcast back over the sequence. -/
theorem v18_apply (s : Fin 1024) (u : Fin 1) (b : Fin 64) :
    val_main_v18 (F := Ideal) x0 x1 x2 x3 x4 (ix3 s u b)
      = Ideal.ofBits .f32 0x00000000#32
        + ∑ s' : Fin 1024, Ideal.exp (score x0 x1 x2 x3 x4 s' b - colMax (score x0 x1 x2 x3 x4) b) := by
  rw [val_main_v18_apply, val_main_v17_apply, val_main_v16_apply]
  refine congrArg₂ (· + ·) rfl (Finset.sum_congr rfl fun s' _ => ?_)
  have e : idx_main_v16 (idx_main_v17 (idx_main_v18 (ix3 s u b))) s' = ix3 s' (0 : Fin 1) b := funext fun a => Fin.ext (by
    match a with
    | ⟨0, _⟩ => rfl
    | ⟨1, _⟩ => rfl
    | ⟨2, _⟩ => rfl)
  rw [e, v15_apply]

/-- The reference's result is the specification's. -/
theorem result_eq : val_main_v19 (F := Ideal) x0 x1 x2 x3 x4 = out x0 x1 x2 x3 x4 := by
  funext i
  obtain ⟨s, u, b, rfl⟩ : ∃ (s : Fin 1024) (u : Fin 1) (b : Fin 64), i = ix3 s u b := ⟨i 0, i 1, i 2, eq_ix3 i⟩
  rw [val_main_v19_apply, v15_apply, v18_apply]
  rfl

end Cert.ReferenceIdeal.RefValue

end
-- ==== Proof.lean ====
/-
  Additive attention scores followed by a softmax over the sequence: the kernel against its jnp reference, on the
  extended reals.

  With hid [1, 64, 512], enc [1024, 64, 512], W [512, 1024], bias [512] and beta [512, 1], both programs compute

      score[s, b] = Σ_h tanh( Σ_k enc[s,b,k]·W[h,512+k] + Σ_k hid[0,b,k]·W[h,k] + bias[h] ) · beta[h,0]
      out[s, 0, b] = exp(score[s,b] − max_s score[s,b]) / Σ_s exp(score[s,b] − max_s score[s,b]).

  The kernel computes the hidden-state term once on the host, the encoder term block by block over 32 grid points of 32
  sequence positions each (a matrix product on the flattened block, the roundings to bf16 the identity here), and the
  softmax on the host afterwards. The reference concatenates the broadcast hidden state with the encoder outputs and
  contracts the 1024 joined entries in one sum. The two agree because a sum of 1024 terms is the sum of its halves and
  addition of extended reals is commutative and associative (at the infinities too: no finiteness of the inputs is used);
  the reference's extra maximum against −∞ changes nothing, since a fold of max is never below its starting value.

  Spec            the function, and the three laws
  LibLayout3      rank-3 layout operations read at an index
  KPayload        what one grid point stores, at an index of its block
  KHost           the three host-computed arrays the region stages, at an index
  KBlocks         the written blocks tile the score array: it ends at `score`
  KTail           the host lines after the region are the softmax
  KRun            the idealized kernel's run, read
  RefValue        the reference's stages are the same function
-/
import proofs.«122231_j51127290691658_2_alg».proof.Defs
import proofs.«122231_j51127290691658_2_alg».proof.Proof.Gen.Kernel
import proofs.«122231_j51127290691658_2_alg».proof.Proof.Gen.Kernel.Skeleton
import proofs.«122231_j51127290691658_2_alg».proof.Proof.Gen.Kernel.Launch
import proofs.«122231_j51127290691658_2_alg».proof.Proof.Gen.Kernel.Points
import proofs.«122231_j51127290691658_2_alg».proof.Proof.Gen.Kernel.Frame
import proofs.«122231_j51127290691658_2_alg».proof.Proof.Gen.KernelIdeal
import proofs.«122231_j51127290691658_2_alg».proof.Proof.Gen.KernelIdeal.Skeleton
import proofs.«122231_j51127290691658_2_alg».proof.Proof.Gen.KernelIdeal.Launch
import proofs.«122231_j51127290691658_2_alg».proof.Proof.Gen.KernelIdeal.Points
import proofs.«122231_j51127290691658_2_alg».proof.Proof.Gen.KernelIdeal.Frame
import proofs.«122231_j51127290691658_2_alg».proof.Proof.Gen.ReferenceIdeal
import proofs.«122231_j51127290691658_2_alg».proof.Proof.Gen.ReferenceIdeal.Run
import proofs.«122231_j51127290691658_2_alg».proof.Proof.Gen.ReferenceIdeal.Read
import proofs.«122231_j51127290691658_2_alg».proof.Proof.Gen.Pre_finite_inputs
import proofs.«122231_j51127290691658_2_alg».proof.Proof.Spec
import proofs.«122231_j51127290691658_2_alg».proof.Proof.KRun
import proofs.«122231_j51127290691658_2_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the result array at the specification's
    function of them. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
